-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1250000 : Shape := ⟨2, ![2, 1250000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  main_v18

def fn {F : FTy → Type} [FloatOps F] (main_arg0 : FVec F S100000x64 .f32) (main_arg1 : IVec S2x1250000 32) (main_arg2 : FVec F S64x64 .f32) (main_arg3 : FVec F S64 .f32) (main_arg4 : FVec F S64x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_v13 main_v16
-- ==== Kernel.lean ====
abbrev S100000x64 : Shape := ⟨2, ![100000, 64]⟩
abbrev S2x1250000 : Shape := ⟨2, ![2, 1250000]⟩
abbrev S64x64 : Shape := ⟨2, ![64, 64]⟩
abbrev S64 : Shape := ⟨1, ![64]⟩
abbrev S1x1250000 : Shape := ⟨2, ![1, 1250000]⟩
abbrev S1250000 : Shape := ⟨1, ![1250000]⟩
abbrev S_ : Shape := ⟨0, ![]⟩
abbrev S1250000x1 : Shape := ⟨2, ![1250000, 1]⟩
abbrev S1250000x64 : Shape := ⟨2, ![1250000, 64]⟩
abbrev S50000x128 : Shape := ⟨2, ![50000, 128]⟩
abbrev S64x128 : Shape := ⟨2, ![64, 128]⟩
abbrev S128x128 : Shape := ⟨2, ![128, 128]⟩
abbrev S128 : Shape := ⟨1, ![128]⟩
abbrev S1x128 : Shape := ⟨2, ![1, 128]⟩
abbrev S5000x128 : Shape := ⟨2, ![5000, 128]⟩

abbrev nBuf : Space → Nat
  | .hbm => 38
  | .vmem => 9
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S1x1250000, .i32⟩
  | .hbm, ⟨6, _⟩ => ⟨S1250000, .i32⟩
  | .hbm, ⟨7, _⟩ => ⟨S1x1250000, .i32⟩
  | .hbm, ⟨8, _⟩ => ⟨S1250000, .i32⟩
  | .hbm, ⟨9, _⟩ => ⟨S100000x64, .bf16⟩
  | .hbm, ⟨10, _⟩ => ⟨S_, .i32⟩
  | .hbm, ⟨11, _⟩ => ⟨S1250000, .i32⟩
  | .hbm, ⟨12, _⟩ => ⟨S1250000, .i1⟩
  | .hbm, ⟨13, _⟩ => ⟨S_, .i32⟩
  | .hbm, ⟨14, _⟩ => ⟨S1250000, .i32⟩
  | .hbm, ⟨15, _⟩ => ⟨S1250000, .i32⟩
  | .hbm, ⟨16, _⟩ => ⟨S1250000, .i32⟩
  | .hbm, ⟨17, _⟩ => ⟨S1250000x1, .i32⟩
  | .hbm, ⟨18, _⟩ => ⟨S1250000x64, .bf16⟩
  | .hbm, ⟨19, _⟩ => ⟨S1250000x64, .f32⟩
  | .hbm, ⟨20, _⟩ => ⟨S_, .f32⟩
  | .hbm, ⟨21, _⟩ => ⟨S100000x64, .f32⟩
  | .hbm, ⟨22, _⟩ => ⟨S1250000x1, .i32⟩
  | .hbm, ⟨23, _⟩ => ⟨S100000x64, .f32⟩
  | .hbm, ⟨24, _⟩ => ⟨S50000x128, .f32⟩
  | .hbm, ⟨25, _⟩ => ⟨S50000x128, .f32⟩
  | .hbm, ⟨26, _⟩ => ⟨S_, .f32⟩
  | .hbm, ⟨27, _⟩ => ⟨S64x64, .f32⟩
  | .hbm, ⟨28, _⟩ => ⟨S64x128, .f32⟩
  | .hbm, ⟨29, _⟩ => ⟨S64x128, .f32⟩
  | .hbm, ⟨30, _⟩ => ⟨S128x128, .f32⟩
  | .hbm, ⟨31, _⟩ => ⟨S64x128, .f32⟩
  | .hbm, ⟨32, _⟩ => ⟨S64x128, .f32⟩
  | .hbm, ⟨33, _⟩ => ⟨S128x128, .f32⟩
  | .hbm, ⟨34, _⟩ => ⟨S128, .f32⟩
  | .hbm, ⟨35, _⟩ => ⟨S1x128, .f32⟩
  | .hbm, ⟨36, _⟩ => ⟨S50000x128, .f32⟩
  | .hbm, ⟨37, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bitsLt_bf16_f32 : FTy.bits .bf16 < FTy.bits .f32
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S100000x64 : S_.BroadcastsInDim S100000x64 (![] : Fin 0 → Fin S100000x64.rank)
  shapeCasts_S100000x64_S50000x128 : S100000x64.ShapeCasts S50000x128
  bcast_S_S64x64 : S_.BroadcastsInDim S64x64 (![] : Fin 0 → Fin S64x64.rank)
  concatenates_S64x64_S64x64_S64x128_d1 : Shape.Concatenates [S64x64, S64x64] S64x128 1
  concatenates_S64x128_S64x128_S128x128_d0 : Shape.Concatenates [S64x128, S64x128] S128x128 0
  concatenates_S64_S64_S128_d0 : Shape.Concatenates [S64, S64] S128 0
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S50000x128_S100000x64 : S50000x128.ShapeCasts S100000x64
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)

variable [Facts₀]

def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v16) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x1250000 : Shape := ⟨2, ![2, 1250000]⟩
abbrev S64x64 : Shape := ⟨2, ![64, 64]⟩
abbrev S64 : Shape := ⟨1, ![64]⟩
abbrev S1x1250000 : Shape := ⟨2, ![1, 1250000]⟩
abbrev S1250000 : Shape := ⟨1, ![1250000]⟩
abbrev S_ : Shape := ⟨0, ![]⟩
abbrev S1250000x1 : Shape := ⟨2, ![1250000, 1]⟩
abbrev S1250000x64 : Shape := ⟨2, ![1250000, 64]⟩
abbrev S1x64 : Shape := ⟨2, ![1, 64]⟩

abbrev nBuf : Space → Nat
  | .hbm => 29
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S1x1250000, .i32⟩
  | .hbm, ⟨6, _⟩ => ⟨S1250000, .i32⟩
  | .hbm, ⟨7, _⟩ => ⟨S1x1250000, .i32⟩
  | .hbm, ⟨8, _⟩ => ⟨S1250000, .i32⟩
  | .hbm, ⟨9, _⟩ => ⟨S_, .i32⟩
  | .hbm, ⟨10, _⟩ => ⟨S1250000, .i32⟩
  | .hbm, ⟨11, _⟩ => ⟨S1250000, .i1⟩
  | .hbm, ⟨12, _⟩ => ⟨S_, .i32⟩
  | .hbm, ⟨13, _⟩ => ⟨S1250000, .i32⟩
  | .hbm, ⟨14, _⟩ => ⟨S1250000, .i32⟩
  | .hbm, ⟨15, _⟩ => ⟨S1250000, .i32⟩
  | .hbm, ⟨16, _⟩ => ⟨S1250000x1, .i32⟩
  | .hbm, ⟨17, _⟩ => ⟨S1250000x64, .f32⟩
  | .hbm, ⟨18, _⟩ => ⟨S_, .f32⟩
  | .hbm, ⟨19, _⟩ => ⟨S100000x64, .f32⟩
  | .hbm, ⟨20, _⟩ => ⟨S1250000x1, .i32⟩
  | .hbm, ⟨21, _⟩ => ⟨S100000x64, .f32⟩
  | .hbm, ⟨22, _⟩ => ⟨S100000x64, .f32⟩
  | .hbm, ⟨23, _⟩ => ⟨S1x64, .f32⟩
  | .hbm, ⟨24, _⟩ => ⟨S100000x64, .f32⟩
  | .hbm, ⟨25, _⟩ => ⟨S100000x64, .f32⟩
  | .hbm, ⟨26, _⟩ => ⟨S100000x64, .f32⟩
  | .hbm, ⟨27, _⟩ => ⟨S100000x64, .f32⟩
  | .hbm, ⟨28, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  dot_S100000x64_S64x64_S100000x64_1_0_0_1_n_n_wf : DotDims.WF S100000x64 S64x64 S100000x64 [1] [0] [0] [1] [] []

variable [Facts₀]

def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.Spec.lean ====
/-
  The layer both programs compute, as one function of its arrays.

  For a graph of 100000 nodes with 64 features each, given the summed neighbour messages `aggr`, the
  node features `x`, two 64 × 64 weight matrices `wl`, `wr` and a bias `b`, node n's output feature d is

      tanh ( ( Σ_k aggr(n,k) · wl(k,d)  +  b(d) )  +  Σ_k x(n,k) · wr(k,d) ),      k over the 64 features.
-/
import Idealize.ShloMosaic.Lib.ValueIdx

noncomputable section

open scoped BigOperators
open Idealize.ShloMosaic Idealize.ShloMosaic.ValueIdx

namespace Cert.Sage

/-- Nodes × features. -/
abbrev Nodes : Shape := ⟨2, ![100000, 64]⟩
/-- A 64 × 64 weight matrix. -/
abbrev Weights : Shape := ⟨2, ![64, 64]⟩
/-- A bias of 64 entries. -/
abbrev Bias : Shape := ⟨1, ![64]⟩

/-- Output feature `d` of node `n`. -/
def layerAt (aggr x : Nodes.Idx → EReal) (wl wr : Weights.Idx → EReal) (b : Bias.Idx → EReal)
    (n : Fin 100000) (d : Fin 64) : EReal :=
  Ideal.tanh ((∑ k : Fin 64, aggr (ix2 n k) * wl (ix2 k d) + b (ix1 d)) + ∑ k : Fin 64, x (ix2 n k) * wr (ix2 k d))

/-- The layer's output array. -/
def layer (aggr x : Nodes.Idx → EReal) (wl wr : Weights.Idx → EReal) (b : Bias.Idx → EReal) : Nodes.Idx → EReal :=
  fun i => layerAt aggr x wl wr b ⟨(i 0).val, idx2_lt0 i⟩ ⟨(i 1).val, idx2_lt1 i⟩

end Cert.Sage

end
-- ==== Proof.RefRead.lean ====
/-
  The reference program's result is the layer of its own summed messages.

  Read one operation at a time: the result at (n, d) is tanh of ((row n of the summed messages against
  column d of W_l, plus b(d)) plus row n of the features against column d of W_r) — the two matrix
  products as sums over the 64 contracted features, the bias broadcast over the nodes.
-/
import proofs.«158548_j5231270166915_2_alg».proof.Proof.Gen.ReferenceIdeal.Read
import proofs.«158548_j5231270166915_2_alg».proof.Proof.Spec

noncomputable section

open scoped BigOperators
open Idealize.ShloMosaic Idealize.ShloMosaic.ValueIdx

namespace Cert.ReferenceIdeal.Hand

open Cert.ReferenceIdeal Cert.ReferenceIdeal.Read Cert.Sage

/-- The reference's result array is `layer` of its summed messages, its features, W_l, W_r and b. -/
theorem result_eq_layer (x0 : (⟨S100000x64, .f32⟩ : BufTy).Contents (Elt Ideal)) (x1 : (⟨S2x1250000, .i32⟩ : BufTy).Contents (Elt Ideal))
    (x2 : (⟨S64x64, .f32⟩ : BufTy).Contents (Elt Ideal)) (x3 : (⟨S64, .f32⟩ : BufTy).Contents (Elt Ideal))
    (x4 : (⟨S64x64, .f32⟩ : BufTy).Contents (Elt Ideal)) :
    val_main_v20 (F := Ideal) x0 x1 x2 x3 x4 = layer (val_main_v13 (F := Ideal) x0 x1) x0 x2 x4 x3 := by
  funext i
  obtain ⟨n, d, rfl⟩ : ∃ (n : Fin 100000) (d : Fin 64), i = ix2 n d := ⟨i 0, i 1, eq_ix2 i⟩
  have el14 : ∀ k : Fin 64, lidx_main_v14 (ix2 n d) k = ix2 n k := fun k => funext fun a => Fin.ext (by
    match a with | ⟨0, _⟩ => rfl | ⟨1, _⟩ => rfl)
  have er14 : ∀ k : Fin 64, ridx_main_v14 (ix2 n d) k = ix2 k d := fun k => funext fun a => Fin.ext (by
    match a with | ⟨0, _⟩ => rfl | ⟨1, _⟩ => rfl)
  have el18 : ∀ k : Fin 64, lidx_main_v18 (ix2 n d) k = ix2 n k := fun k => funext fun a => Fin.ext (by
    match a with | ⟨0, _⟩ => rfl | ⟨1, _⟩ => rfl)
  have er18 : ∀ k : Fin 64, ridx_main_v18 (ix2 n d) k = ix2 k d := fun k => funext fun a => Fin.ext (by
    match a with | ⟨0, _⟩ => rfl | ⟨1, _⟩ => rfl)
  have eb : idx_main_v15 (idx_main_v16 (ix2 n d)) = ix1 d := funext fun a => Fin.ext (by
    match a with | ⟨0, _⟩ => rfl)
  rw [val_main_v20_apply, val_main_v19_apply, val_main_v17_apply, val_main_v14_apply, val_main_v18_apply,
    val_main_v16_apply, val_main_v15_apply]
  simp only [el14, er14, el18, er18, eb, Ideal.hostUnary_tanh_def, Ideal.addf_def]
  rfl

end Cert.ReferenceIdeal.Hand

end
-- ==== Proof.Payload.lean ====
/-
  What the kernel body stores, read at one element. At row p and lane q of a 5000 × 128 block the
  stored value is

      tanh ( ( Σ_k a(p,k) · wl(k,q)  +  Σ_k x(p,k) · wr(k,q) )  +  b(0,q) ),     k over the 128 lanes,

  with a, x the two row blocks, wl, wr the two 128 × 128 weight blocks and b the 1 × 128 bias row.
  On extended reals the narrowing to bf16 in front of each matrix product is the identity, each
  product accumulates into the zero block and is therefore the plain sum over the contracted axis,
  and the bias row is broadcast down the rows.
-/
import proofs.«158548_j5231270166915_2_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators
open Idealize.ShloMosaic Idealize.ShloMosaic.ValueIdx

namespace Cert.KernelIdeal.Body

open Cert.KernelIdeal Cert.KernelIdeal.Gen

/-- The body's contraction: rows × 128 lanes against 128 lanes × columns. -/
abbrev mm : DotDims S5000x128 S128x128 S5000x128 := dot_S5000x128_S128x128_S5000x128_1_0_0_1_n_n

theorem lhs_row (i : S5000x128.Idx) (q : mm.contr.Idx) : (mm.lhsIdx i q 0).val = (i 0).val := by
  unfold DotDims.lhsIdx
  rw [dif_neg (show ¬(0 : Fin S5000x128.rank) ∈ mm.lhsBatch by decide),
    dif_pos (show (0 : Fin S5000x128.rank) ∈ mm.lhsNonContracting by decide)]
  rfl
theorem lhs_lane (i : S5000x128.Idx) (q : mm.contr.Idx) : (mm.lhsIdx i q 1).val = (q ⟨0, by decide⟩).val :=
  mm.lhsIdx_val_of_single rfl i q
theorem rhs_lane (i : S5000x128.Idx) (q : mm.contr.Idx) : (mm.rhsIdx i q 0).val = (q ⟨0, by decide⟩).val :=
  mm.rhsIdx_val_of_single rfl i q
theorem rhs_col (i : S5000x128.Idx) (q : mm.contr.Idx) : (mm.rhsIdx i q 1).val = (i 1).val := by
  unfold DotDims.rhsIdx
  rw [dif_neg (show ¬(1 : Fin S128x128.rank) ∈ mm.rhsBatch by decide),
    dif_pos (show (1 : Fin S128x128.rank) ∈ mm.rhsNonContracting by decide)]
  rfl

/-- A matrix product of the body into the zero accumulator, at row `p` and lane `q`: the sum over the
    128 contracted lanes of the row's entries times the column's. -/
theorem matmul_at (a : FVec Ideal S5000x128 .bf16) (w : FVec Ideal S128x128 .bf16) (p : Fin 5000) (q : Fin 128) :
    matmul mm none a w (constant (F := Ideal) S5000x128 .f32 0x00000000#32) (ix2 p q)
      = ∑ k : Fin 128, a (ix2 p k) * w (ix2 k q) := by
  simp only [matmul]
  rw [Ideal.matmul_constant_zero_apply, ← Equiv.sum_comp (contrEquiv1 mm 128 rfl rfl).symm]
  refine Finset.sum_congr rfl fun k _ => ?_
  have hk := contrEquiv1_symm_val mm 128 rfl rfl k
  have el : mm.lhsIdx (ix2 p q) ((contrEquiv1 mm 128 rfl rfl).symm k) = ix2 p k := funext fun d => Fin.ext (by
    match d with
    | ⟨0, _⟩ => exact lhs_row _ _
    | ⟨1, _⟩ => exact (lhs_lane _ _).trans hk)
  have er : mm.rhsIdx (ix2 p q) ((contrEquiv1 mm 128 rfl rfl).symm k) = ix2 k q := funext fun d => Fin.ext (by
    match d with
    | ⟨0, _⟩ => exact (rhs_lane _ _).trans hk
    | ⟨1, _⟩ => exact rhs_col _ _)
  rw [el, er]

/-- The bias row broadcast down the 5000 rows reads, at row `p` and lane `q`, the row's entry at lane `q`. -/
theorem bias_at (b : Vec Ideal S1x128 .f32) (p : Fin 5000) (q : Fin 128) :
    broadcastTo S5000x128 b broadcasts_S1x128_S5000x128 (ix2 p q) = b (ix2 (0 : Fin 1) q) :=
  broadcastTo_apply b broadcasts_S1x128_S5000x128 (ix2 p q) (ix2 (0 : Fin 1) q) (fun d => by
    match d with
    | ⟨0, _⟩ => rfl
    | ⟨1, _⟩ => rfl)

/-- THE STORED VALUE at row `p`, lane `q`. -/
theorem pay_at (a x : Vec Ideal S5000x128 .f32) (wl wr : Vec Ideal S128x128 .f32) (b : Vec Ideal S1x128 .f32)
    (p : Fin 5000) (q : Fin 128) :
    k0_pay1 a x wl wr b (ix2 p q)
      = Ideal.tanh ((∑ k : Fin 128, a (ix2 p k) * wl (ix2 k q) + ∑ k : Fin 128, x (ix2 p k) * wr (ix2 k q))
          + b (ix2 (0 : Fin 1) q)) := by
  unfold k0_pay1
  show Ideal.tanh ((matmul mm none _ _ (constant (F := Ideal) S5000x128 .f32 0x00000000#32) (ix2 p q)
      + matmul mm none _ _ (constant (F := Ideal) S5000x128 .f32 0x00000000#32) (ix2 p q))
      + broadcastTo S5000x128 _ broadcasts_S1x128_S5000x128 (ix2 p q)) = _
  rw [matmul_at, matmul_at, bias_at]
  simp only [shapeCast_self, truncf_apply]

end Cert.KernelIdeal.Body

end
-- ==== Proof.Packed.lean ====
/-
  The 50000 × 128 array the kernel region leaves, as ONE function of the five arrays the region reads.

  The grid has ten points; point t works on rows 5000·t … 5000·t + 4999 of the two row-blocked operands
  and of the result, and on the whole of the two 128 × 128 weight arrays and of the 1 × 128 bias row.
  What point t writes back is therefore rows 5000·t … of

      packed A X WL WR B (r, q) = tanh ( ( Σ_k A(r,k) · WL(k,q) + Σ_k X(r,k) · WR(k,q) ) + B(0,q) ),

  and since every row r lies in the block of point r / 5000, the result array ends at `packed`.
  Everything here is stated for ARBITRARY contents of the five arrays; what the arrays hold when the
  region is entered is read separately.
-/
import proofs.«158548_j5231270166915_2_alg».proof.Proof.Gen.KernelIdeal.Frame
import proofs.«158548_j5231270166915_2_alg».proof.Proof.Payload

noncomputable section

open scoped BigOperators
open Idealize.ShloMosaic Idealize.ShloMosaic.TcCoe Idealize.ShloMosaic.ValueIdx Idealize.SL.Sem
open Idealize.ShloMosaic.Pipeline (Dat)

namespace Cert.KernelIdeal.Packed

open Cert.KernelIdeal Cert.KernelIdeal.Gen

/-- One element of the packed result: row `r` of the two packed operands against column `q` of the two
    packed weight arrays, plus the packed bias at lane `q`, through tanh. -/
def packedAt (A X : S50000x128.Idx → EReal) (WL WR : S128x128.Idx → EReal) (B : S1x128.Idx → EReal)
    (r : Fin 50000) (q : Fin 128) : EReal :=
  Ideal.tanh ((∑ k : Fin 128, A (ix2 r k) * WL (ix2 k q) + ∑ k : Fin 128, X (ix2 r k) * WR (ix2 k q))
    + B (ix2 (0 : Fin 1) q))

/-- The packed result as an array. -/
def packed (A X : S50000x128.Idx → EReal) (WL WR : S128x128.Idx → EReal) (B : S1x128.Idx → EReal) :
    S50000x128.Idx → EReal :=
  fun i => packedAt A X WL WR B ⟨(i 0).val, idx2_lt0 i⟩ ⟨(i 1).val, idx2_lt1 i⟩

theorem packed_ix2 (A X : S50000x128.Idx → EReal) (WL WR : S128x128.Idx → EReal) (B : S1x128.Idx → EReal)
    (r : Fin 50000) (q : Fin 128) : packed A X WL WR B (ix2 r q) = packedAt A X WL WR B r q := rfl

/-- A block's stored value is the packed result at the array position of the block element, once the two
    row blocks are the arrays' rows from row `o` on and the other three blocks are the whole arrays. -/
theorem pay_block (a x : Vec Ideal S5000x128 .f32) (wl wr : Vec Ideal S128x128 .f32) (b : Vec Ideal S1x128 .f32)
    (A X : S50000x128.Idx → EReal) (WL WR : S128x128.Idx → EReal) (B : S1x128.Idx → EReal) (o : Nat)
    (ha : ∀ (y : S5000x128.Idx) (i : S50000x128.Idx), (i 0).val = o + (y 0).val → (i 1).val = (y 1).val → a y = A i)
    (hx : ∀ (y : S5000x128.Idx) (i : S50000x128.Idx), (i 0).val = o + (y 0).val → (i 1).val = (y 1).val → x y = X i)
    (hwl : wl = WL) (hwr : wr = WR) (hb : b = B)
    (y : S5000x128.Idx) (i : S50000x128.Idx) (hi0 : (i 0).val = o + (y 0).val) (hi1 : (i 1).val = (y 1).val) :
    k0_pay1 a x wl wr b y = packed A X WL WR B i := by
  obtain ⟨p, q, rfl⟩ : ∃ (p : Fin 5000) (q : Fin 128), y = ix2 p q := ⟨y 0, y 1, eq_ix2 y⟩
  subst hwl hwr hb
  rw [Body.pay_at]
  unfold packed packedAt
  have hq : (⟨(i 1).val, idx2_lt1 i⟩ : Fin 128) = q := Fin.ext hi1
  rw [hq]
  have hA : ∀ k : Fin 128, a (ix2 p k) = A (ix2 ⟨(i 0).val, idx2_lt0 i⟩ k) := fun k => ha _ _ hi0 rfl
  have hX : ∀ k : Fin 128, x (ix2 p k) = X (ix2 ⟨(i 0).val, idx2_lt0 i⟩ k) := fun k => hx _ _ hi0 rfl
  simp only [hA, hX]

theorem hz : (![0, 0] : Fin 2 → Nat) = fun _ => 0 := funext fun a => by fin_cases a <;> rfl

/-- Where each window's block sits at point `t`, decided over the ten points: the row-blocked windows at
    block row `t`, the weight and bias windows always at their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

section Blocks

variable (c : Dev nD)
variable (g0 : Buf (Elt Ideal) ((c : Thread nD τ).loc (Pipeline.arrRef spec0 0)))
variable (g1 : Buf (Elt Ideal) ((c : Thread nD τ).loc (Pipeline.arrRef spec0 1)))
variable (g2 : Buf (Elt Ideal) ((c : Thread nD τ).loc (Pipeline.arrRef spec0 2)))
variable (g3 : Buf (Elt Ideal) ((c : Thread nD τ).loc (Pipeline.arrRef spec0 3)))
variable (g4 : Buf (Elt Ideal) ((c : Thread nD τ).loc (Pipeline.arrRef spec0 4)))

/-- The first operand's block at point `t` is rows 5000·t … of its array. -/
theorem blk0_at (t : Fin cfg0.N) (y : S5000x128.Idx) (i : S50000x128.Idx)
    (h0 : (i 0).val = t.val * 5000 + (y 0).val) (h1 : (i 1).val = (y 1).val) :
    ((cfg0.win 0).blk t).view.read (Elt Ideal) g0 y = (g0 : S50000x128.Idx → EReal) i := by
  obtain ⟨e0, e1, -⟩ := idx_facts t
  rw [View.read_apply]
  refine congrArg g0 (funext fun a => Fin.ext ?_)
  match a with
  | ⟨0, _⟩ => show win0_0.index t (0 : Fin 2) * 5000 + 1 * (y 0).val = (i 0).val; omega
  | ⟨1, _⟩ => show win0_0.index t (1 : Fin 2) * 128 + 1 * (y 1).val = (i 1).val; omega

/-- The second operand's block at point `t` is rows 5000·t … of its array. -/
theorem blk1_at (t : Fin cfg0.N) (y : S5000x128.Idx) (i : S50000x128.Idx)
    (h0 : (i 0).val = t.val * 5000 + (y 0).val) (h1 : (i 1).val = (y 1).val) :
    ((cfg0.win 1).blk t).view.read (Elt Ideal) g1 y = (g1 : S50000x128.Idx → EReal) i := by
  obtain ⟨-, -, e0, e1, -⟩ := idx_facts t
  rw [View.read_apply]
  refine congrArg g1 (funext fun a => Fin.ext ?_)
  match a with
  | ⟨0, _⟩ => show win0_1.index t (0 : Fin 2) * 5000 + 1 * (y 0).val = (i 0).val; omega
  | ⟨1, _⟩ => show win0_1.index t (1 : Fin 2) * 128 + 1 * (y 1).val = (i 1).val; omega

/-- The left weight window's block is its whole array at every point. -/
theorem blk2_eq (t : Fin cfg0.N) :
    (((cfg0.win 2).blk t).view.read (Elt Ideal) g2 : Vec Ideal S128x128 .f32) = (g2 : S128x128.Idx → EReal) := by
  obtain ⟨-, -, -, -, e0, e1, -⟩ := idx_facts t
  funext y
  rw [View.read_apply]
  refine congrArg g2 (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- The right weight window's block is its whole array at every point. -/
theorem blk3_eq (t : Fin cfg0.N) :
    (((cfg0.win 3).blk t).view.read (Elt Ideal) g3 : Vec Ideal S128x128 .f32) = (g3 : S128x128.Idx → EReal) := by
  obtain ⟨-, -, -, -, -, -, e0, e1, -⟩ := idx_facts t
  funext y
  rw [View.read_apply]
  refine congrArg g3 (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- The bias window's block is its whole row at every point. -/
theorem blk4_eq (t : Fin cfg0.N) :
    (((cfg0.win 4).blk t).view.read (Elt Ideal) g4 : Vec Ideal S1x128 .f32) = (g4 : S1x128.Idx → EReal) := by
  obtain ⟨-, -, -, -, -, -, -, -, e0, e1, -⟩ := idx_facts t
  funext y
  rw [View.read_apply]
  refine congrArg g4 (funext fun a => Fin.ext ?_)
  match a with
  | ⟨0, _⟩ => show win0_4.index t (0 : Fin 2) * 1 + 1 * (y 0).val = (y 0).val; omega
  | ⟨1, _⟩ => show win0_4.index t (1 : Fin 2) * 128 + 1 * (y 1).val = (y 1).val; omega

/-- What the body leaves in the result's staging buffer at point `t`, from the five arrays' blocks there,
    is block `t` of the packed result of the five arrays. -/
theorem out_block (t : Fin cfg0.N) :
    out0_5 (((cfg0.win 0).blk t).view.read (Elt Ideal) g0) (((cfg0.win 1).blk t).view.read (Elt Ideal) g1)
        (((cfg0.win 2).blk t).view.read (Elt Ideal) g2) (((cfg0.win 3).blk t).view.read (Elt Ideal) g3)
        (((cfg0.win 4).blk t).view.read (Elt Ideal) g4)
      = ((cfg0.win 5).blk t).view.read (Elt Ideal) (packed g0 g1 g2 g3 g4) := by
  unfold out0_5
  rw [View.canon_unit_zero hz]
  simp only [View.ld_unit_zero (S := S5000x128) hz, View.ld_unit_zero (S := S128x128) hz, View.ld_unit_zero (S := S1x128) hz]
  obtain ⟨-, -, -, -, -, -, -, -, -, -, e0, e1⟩ := idx_facts t
  funext j
  rw [View.read_apply]
  refine pay_block _ _ _ _ _ _ _ _ _ _ (t.val * 5000) (blk0_at c g0 t) (blk1_at c g1 t) (blk2_eq c g2 t) (blk3_eq c g3 t) (blk4_eq c g4 t) j _ ?_ ?_
  · show win0_5.index t (0 : Fin 2) * 5000 + 1 * (j 0).val = t.val * 5000 + (j 0).val; omega
  · show win0_5.index t (1 : Fin 2) * 128 + 1 * (j 1).val = (j 1).val; omega

end Blocks

/-- An index of the result array is in point `t`'s block iff each coordinate is in the block's range. -/
theorem mem_blk (t : Fin cfg0.N) (i : S50000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v27).slice (win0_5.rect t)).set ↔ _
  rw [View.set_slice_whole, Rect.mem_set_unit]
  exact Iff.rfl

/-- Every row lies in the block of the point its number divided by 5000 names. -/
theorem cover (i : S50000x128.Idx) :
    ∃ t : Fin cfg0.N, (cfg0.win 5).flush t = true ∧ i ∈ ((cfg0.win 5).blk t).view.set := by
  have hN : cfg0.N = 10 := N_0
  have hi0 : (i 0).val < 50000 := idx2_lt0 i
  have hi1 : (i 1).val < 128 := idx2_lt1 i
  have ht : (i 0).val / 5000 < cfg0.N := by rw [hN]; omega
  refine ⟨⟨(i 0).val / 5000, ht⟩, flush0_5 _, ?_⟩
  rw [mem_blk]
  obtain ⟨-, -, -, -, -, -, -, -, -, -, e0, e1⟩ := idx_facts ⟨(i 0).val / 5000, ht⟩
  intro a
  match a with
  | ⟨0, _⟩ =>
    show win0_5.index ⟨(i 0).val / 5000, ht⟩ (0 : Fin 2) * 5000 ≤ (i 0).val
      ∧ (i 0).val < win0_5.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_5.index ⟨(i 0).val / 5000, ht⟩ (1 : Fin 2) * 128 ≤ (i 1).val
      ∧ (i 1).val < win0_5.index ⟨(i 0).val / 5000, ht⟩ (1 : Fin 2) * 128 + 128
    rw [e1]; omega

variable (m : (ℓ : Loc nD τ sig) → Buf (Elt Ideal) ℓ)

/-- The region's result as one function of the five arrays as the region finds them. -/
abbrev result (c : Dev nD) : S50000x128.Idx → EReal :=
  packed (V m c (Pipeline.arrRef spec0 0)) (V m c (Pipeline.arrRef spec0 1)) (V m c (Pipeline.arrRef spec0 2))
    (V m c (Pipeline.arrRef spec0 3)) (V m c (Pipeline.arrRef spec0 4))

/-- WHAT POINT `t` WRITES BACK is block `t` of `result`. -/
theorem flushed_eq (c : Dev nD) (t : Fin cfg0.N) :
    (dats m 0 c).flushed 5 t = ((cfg0.win 5).blk t).view.read (Elt Ideal) (result m c) := by
  show (cfg0.win 5).cut (grid0.coords t) ((dats m 0 c).after 5 t) = _
  rw [after0_5]
  unfold iblk
  exact out_block c _ _ _ _ _ t

/-- THE RESULT ARRAY after the region: `result`. -/
theorem final (c : Dev nD) : (dats m 0 c).arrAt 5 cfg0.N = result m c :=
  (dats m 0 c).arrAt_eq_of_cover 5 (result m c) (fun t _ => flushed_eq m c t) cover

end Cert.KernelIdeal.Packed

end
-- ==== Proof.Entry.lean ====
/-
  What the five arrays hold when the kernel region is entered, and how each reads at an index.

  Before the region the program
    · sums the messages: it gathers the source nodes' feature rows (rounded to bf16 and widened again,
      both the identity on extended reals) and adds each into its target node's row — `aggr`;
    · lays `aggr` and the node features `x` out two nodes to a row: row r of the 50000 × 128 array is node
      2r's 64 features followed by node 2r+1's — `pack`;
    · builds from each 64 × 64 weight matrix W the 128 × 128 block-diagonal matrix diag(W, W) out of W and
      zero blocks — `blockDiag`;
    · repeats the 64-entry bias twice along a 1 × 128 row — `biasRow`.
-/
import proofs.«158548_j5231270166915_2_alg».proof.Proof.Gen.KernelIdeal.Frame
import Idealize.ShloMosaic.Lib.Pipeline.Value
import Idealize.ShloMosaic.Lib.ValueIdx
import Idealize.ShloMosaic.Lib.StableHlo.Run
import Idealize.ShloMosaic.PureOps.Ideal.Laws

noncomputable section

open scoped BigOperators
open Idealize.ShloMosaic Idealize.ShloMosaic.TcCoe Idealize.ShloMosaic.ValueIdx Idealize.SL.Sem

namespace Cert.KernelIdeal.Entry

open Cert.KernelIdeal Cert.KernelIdeal.Gen

/-! ## The arrays as functions of the program's arguments -/

/-- Row 0 of the edge list: the source node of each edge. -/
def srcRow (e : (⟨S2x1250000, .i32⟩ : BufTy).Contents (Elt Ideal)) : (⟨S1250000, .i32⟩ : BufTy).Contents (Elt Ideal) :=
  shapeCast _ (extractStridedSlice S1x1250000 ![0, 0] e slices_S2x1250000_S1x1250000_0_0) shapeCasts_S1x1250000_S1250000

/-- Row 1 of the edge list: the target node of each edge. -/
def dstRow (e : (⟨S2x1250000, .i32⟩ : BufTy).Contents (Elt Ideal)) : (⟨S1250000, .i32⟩ : BufTy).Contents (Elt Ideal) :=
  shapeCast _ (extractStridedSlice S1x1250000 ![1, 0] e slices_S2x1250000_S1x1250000_1_0) shapeCasts_S1x1250000_S1250000

/-- The summed messages: each edge's source row (a negative source index counted from the end) added
    into its target row of a zero array. -/
def aggr (x : (⟨S100000x64, .f32⟩ : BufTy).Contents (Elt Ideal)) (e : (⟨S2x1250000, .i32⟩ : BufTy).Contents (Elt Ideal)) :
    (⟨S100000x64, .f32⟩ : BufTy).Contents (Elt Ideal) :=
  Host.scatterAdd scatter_S100000x64_S1250000x1_S1250000x64_1_0_0_1
    (broadcastInDim S100000x64 ![] bcast_S_S100000x64 (constant (F := Ideal) S_ .f32 0x00000000#32))
    (broadcastInDim S1250000x1 ![0] bcast_S1250000_S1250000x1_0 (dstRow e))
    (extf .f32 (Host.gather gather_S100000x64_S1250000x1_S1250000x64_1_0_n_n_0_1_164 (truncf .bf16 x bitsLt_bf16_f32)
      (broadcastInDim S1250000x1 ![0] bcast_S1250000_S1250000x1_0
        (select (cmpi .slt (srcRow e) (broadcastInDim S1250000 ![] bcast_S_S1250000 (constantI S_ 32 0#32)))
          (addi (srcRow e) (broadcastInDim S1250000 ![] bcast_S_S1250000 (constantI S_ 32 100000#32)))
          (srcRow e)))) bitsLt_bf16_f32)

/-- Two nodes to a row. -/
def pack (x : S100000x64.Idx → EReal) : S50000x128.Idx → EReal :=
  shapeCast S50000x128 x shapeCasts_S100000x64_S50000x128

/-- The 64 × 64 zero block. -/
def zeros : S64x64.Idx → EReal :=
  broadcastInDim S64x64 ![] bcast_S_S64x64 (constant (F := Ideal) S_ .f32 0x00000000#32)

/-- Two 64 × 64 blocks side by side. -/
def beside (a b : S64x64.Idx → EReal) : S64x128.Idx → EReal :=
  concatenate S64x128 1 [⟨S64x64, a⟩, ⟨S64x64, b⟩] concatenates_S64x64_S64x64_S64x128_d1

/-- Two 64 × 128 blocks one above the other. -/
def above (a b : S64x128.Idx → EReal) : S128x128.Idx → EReal :=
  concatenate S128x128 0 [⟨S64x128, a⟩, ⟨S64x128, b⟩] concatenates_S64x128_S64x128_S128x128_d0

/-- diag(W, W). -/
def blockDiag (w : S64x64.Idx → EReal) : S128x128.Idx → EReal :=
  above (beside w zeros) (beside zeros w)

/-- The bias twice along a row. -/
def biasRow (b : S64.Idx → EReal) : S1x128.Idx → EReal :=
  shapeCast S1x128 (concatenate S128 0 [⟨S64, b⟩, ⟨S64, b⟩] concatenates_S64_S64_S128_d0) shapeCasts_S128_S1x128

/-! ## Reading them at an index -/

/-- Row `r`, lane `q` of the packed array is feature `k` of node `n` when the two flat positions agree. -/
theorem pack_at (x : S100000x64.Idx → EReal) (r : Fin 50000) (q : Fin 128) (n : Fin 100000) (k : Fin 64)
    (h : n.val * 64 + k.val = r.val * 128 + q.val) : pack x (ix2 r q) = x (ix2 n k) :=
  shapeCast_apply x shapeCasts_S100000x64_S50000x128 (ix2 r q) (ix2 n k) (by
    rw [Shape.rowMajor_val_two, Shape.rowMajor_val_two]; exact h)

theorem zeros_at (i : S64x64.Idx) : zeros i = 0 := by
  unfold zeros
  rw [broadcastInDim_apply _ bcast_S_S64x64 _ i ix0 (fun a => a.elim0)]
  exact Ideal.ofBits_zero_f32

/-- Left half of two blocks side by side. -/
theorem beside_left (a b : S64x64.Idx → EReal) (k d : Fin 64) : beside a b (ix2 k (Fin.castAdd 64 d)) = a (ix2 k d) := by
  unfold beside
  exact concatenate_pair_apply_left (t := S64x128) (1 : Fin 2) a b concatenates_S64x64_S64x64_S64x128_d1 _ rfl (ix2 k d)
    (fun c => by match c with | ⟨0, _⟩ => rfl | ⟨1, _⟩ => rfl)

/-- Right half of two blocks side by side. -/
theorem beside_right (a b : S64x64.Idx → EReal) (k d : Fin 64) : beside a b (ix2 k (Fin.natAdd 64 d)) = b (ix2 k d) := by
  unfold beside
  exact concatenate_pair_apply_right (t := S64x128) (1 : Fin 2) a b concatenates_S64x64_S64x64_S64x128_d1 _ rfl rfl (ix2 k d)
    (fun c => by match c with | ⟨0, _⟩ => exact fun _ => rfl | ⟨1, _⟩ => exact fun h => absurd rfl h)
    (by show d.val + 64 = 64 + d.val; omega)

/-- Upper half of two blocks one above the other. -/
theorem above_top (a b : S64x128.Idx → EReal) (k : Fin 64) (q : Fin 128) : above a b (ix2 (Fin.castAdd 64 k) q) = a (ix2 k q) := by
  unfold above
  exact concatenate_pair_apply_left (t := S128x128) (0 : Fin 2) a b concatenates_S64x128_S64x128_S128x128_d0 _ rfl (ix2 k q)
    (fun c => by match c with | ⟨0, _⟩ => rfl | ⟨1, _⟩ => rfl)

/-- Lower half of two blocks one above the other. -/
theorem above_bottom (a b : S64x128.Idx → EReal) (k : Fin 64) (q : Fin 128) : above a b (ix2 (Fin.natAdd 64 k) q) = b (ix2 k q) := by
  unfold above
  exact concatenate_pair_apply_right (t := S128x128) (0 : Fin 2) a b concatenates_S64x128_S64x128_S128x128_d0 _ rfl rfl (ix2 k q)
    (fun c => by match c with | ⟨0, _⟩ => exact fun h => absurd rfl h | ⟨1, _⟩ => exact fun _ => rfl)
    (by show k.val + 64 = 64 + k.val; omega)

/-- diag(W, W) on its first diagonal block is W … -/
theorem blockDiag_low_low (w : S64x64.Idx → EReal) (k d : Fin 64) :
    blockDiag w (ix2 (Fin.castAdd 64 k) (Fin.castAdd 64 d)) = w (ix2 k d) := by
  unfold blockDiag; rw [above_top, beside_left]
/-- … on its second diagonal block W again … -/
theorem blockDiag_high_high (w : S64x64.Idx → EReal) (k d : Fin 64) :
    blockDiag w (ix2 (Fin.natAdd 64 k) (Fin.natAdd 64 d)) = w (ix2 k d) := by
  unfold blockDiag; rw [above_bottom, beside_right]
/-- … and zero off the diagonal. -/
theorem blockDiag_low_high (w : S64x64.Idx → EReal) (k d : Fin 64) :
    blockDiag w (ix2 (Fin.castAdd 64 k) (Fin.natAdd 64 d)) = 0 := by
  unfold blockDiag; rw [above_top, beside_right, zeros_at]
theorem blockDiag_high_low (w : S64x64.Idx → EReal) (k d : Fin 64) :
    blockDiag w (ix2 (Fin.natAdd 64 k) (Fin.castAdd 64 d)) = 0 := by
  unfold blockDiag; rw [above_bottom, beside_left, zeros_at]

/-- The doubled bias at a lane of its first copy … -/
theorem biasRow_low (b : S64.Idx → EReal) (d : Fin 64) : biasRow b (ix2 (0 : Fin 1) (Fin.castAdd 64 d)) = b (ix1 d) := by
  unfold biasRow
  rw [shapeCast_apply _ shapeCasts_S128_S1x128 (ix2 (0 : Fin 1) (Fin.castAdd 64 d)) (ix1 (Fin.castAdd 64 d)) (by
    rw [Shape.rowMajor_val_one, Shape.rowMajor_val_two]; show d.val = 0 * 128 + d.val; omega)]
  exact concatenate_pair_apply_left (0 : Fin 1) b b concatenates_S64_S64_S128_d0 (ix1 (Fin.castAdd 64 d)) rfl (ix1 d)
    (fun c => by match c with | ⟨0, _⟩ => rfl)
/-- … and of its second. -/
theorem biasRow_high (b : S64.Idx → EReal) (d : Fin 64) : biasRow b (ix2 (0 : Fin 1) (Fin.natAdd 64 d)) = b (ix1 d) := by
  unfold biasRow
  rw [shapeCast_apply _ shapeCasts_S128_S1x128 (ix2 (0 : Fin 1) (Fin.natAdd 64 d)) (ix1 (Fin.natAdd 64 d)) (by
    rw [Shape.rowMajor_val_one, Shape.rowMajor_val_two]; show 64 + d.val = 0 * 128 + (64 + d.val); omega)]
  exact concatenate_pair_apply_right (0 : Fin 1) b b concatenates_S64_S64_S128_d0 (ix1 (Fin.natAdd 64 d)) rfl rfl (ix1 d)
    (fun c => by match c with | ⟨0, _⟩ => exact fun h => absurd rfl h)
    (by show d.val + 64 = 64 + d.val; omega)

/-! ## What the region finds -/

variable (m : (ℓ : Loc nD τ sig) → Buf (Elt Ideal) ℓ)

/-- The first operand: the summed messages, two nodes to a row. -/
theorem entry0 (c : Dev nD) : V m c (Pipeline.arrRef spec0 0)
    = pack (aggr (m ((c : Thread nD τ).loc main_arg0)) (m ((c : Thread nD τ).loc main_arg1))) := by
  show StableHlo.after hostOps0 (fun b => m (c, b)) (Proc.devRef .tc main_v16) = _
  after_results
  rfl

/-- The second operand: the node features, two nodes to a row. -/
theorem entry1 (c : Dev nD) : V m c (Pipeline.arrRef spec0 1) = pack (m ((c : Thread nD τ).loc main_arg0)) := by
  show StableHlo.after hostOps0 (fun b => m (c, b)) (Proc.devRef .tc main_v17) = _
  after_results
  rfl

/-- The third operand: diag(W_l, W_l). -/
theorem entry2 (c : Dev nD) : V m c (Pipeline.arrRef spec0 2) = blockDiag (m ((c : Thread nD τ).loc main_arg2)) := by
  show StableHlo.after hostOps0 (fun b => m (c, b)) (Proc.devRef .tc main_v21) = _
  after_results
  rfl

/-- The fourth operand: diag(W_r, W_r). -/
theorem entry3 (c : Dev nD) : V m c (Pipeline.arrRef spec0 3) = blockDiag (m ((c : Thread nD τ).loc main_arg4)) := by
  show StableHlo.after hostOps0 (fun b => m (c, b)) (Proc.devRef .tc main_v24) = _
  after_results
  rfl

/-- The fifth operand: the bias twice along a row. -/
theorem entry4 (c : Dev nD) : V m c (Pipeline.arrRef spec0 4) = biasRow (m ((c : Thread nD τ).loc main_arg3)) := by
  show StableHlo.after hostOps0 (fun b => m (c, b)) (Proc.devRef .tc main_v26) = _
  after_results
  rfl

end Cert.KernelIdeal.Entry

end
-- ==== Proof.BlockSum.lean ====
/-
  A row of 128 lanes holding two nodes' 64 features side by side, contracted with one column of a
  block-diagonal 128 × 128 matrix diag(W, W): the column meets only the block it lies in, so the
  128-term sum is the 64-term sum of that node's features against the column of W. The other block's
  entries are the extended real 0, and x * 0 = 0 for every extended real x, infinite ones included,
  so no finiteness is used.
-/
import Idealize.ShloMosaic.PureOps.Ideal

open scoped BigOperators

namespace Cert.Sage.BlockSum

/-- A sum over 128 lanes is the sum over lanes 0 … 63 plus the sum over lanes 64 … 127. -/
theorem sum_halves (f : Fin 128 → EReal) :
    ∑ k : Fin 128, f k = ∑ k : Fin 64, f (Fin.castAdd 64 k) + ∑ k : Fin 64, f (Fin.natAdd 64 k) :=
  Fin.sum_univ_add (a := 64) (b := 64) f

/-- The column lies in the first diagonal block: only the low 64 lanes contribute. -/
theorem sum_low (u w : Fin 128 → EReal) (u0 w0 : Fin 64 → EReal)
    (hu : ∀ k : Fin 64, u (Fin.castAdd 64 k) = u0 k) (hw : ∀ k : Fin 64, w (Fin.castAdd 64 k) = w0 k)
    (hz : ∀ k : Fin 64, w (Fin.natAdd 64 k) = 0) :
    ∑ k : Fin 128, u k * w k = ∑ k : Fin 64, u0 k * w0 k := by
  rw [sum_halves]
  simp only [hu, hw, hz, mul_zero, Finset.sum_const_zero, add_zero]

/-- The column lies in the second diagonal block: only the high 64 lanes contribute. -/
theorem sum_high (u w : Fin 128 → EReal) (u1 w1 : Fin 64 → EReal)
    (hu : ∀ k : Fin 64, u (Fin.natAdd 64 k) = u1 k) (hw : ∀ k : Fin 64, w (Fin.natAdd 64 k) = w1 k)
    (hz : ∀ k : Fin 64, w (Fin.castAdd 64 k) = 0) :
    ∑ k : Fin 128, u k * w k = ∑ k : Fin 64, u1 k * w1 k := by
  rw [sum_halves]
  simp only [hu, hw, hz, mul_zero, Finset.sum_const_zero, zero_add]

end Cert.Sage.BlockSum
-- ==== Proof.Bridge.lean ====
/-
  The kernel program's result is the layer, too.

  The region's 50000 × 128 result, unpacked to 100000 × 64, reads at node n and feature d the packed
  result at row n / 2 and lane 64·(n mod 2) + d. In that row the 128 lanes are node 2r's features then
  node 2r+1's, and column 64·p + d of diag(W, W) is column d of W in block p and zero in the other, so
  each 128-term product collapses to node n's 64-term product with column d of W; the doubled bias reads
  b(d) at either copy. Both programs then add the same three numbers, the kernel as (S₁ + S₂) + b and the
  reference as (S₁ + b) + S₂ — equal in any commutative monoid, so no finiteness of the inputs is used.

  The summed messages themselves are one function of the arguments in both programs: the kernel's detour
  through bf16 is the identity on extended reals.
-/
import proofs.«158548_j5231270166915_2_alg».proof.Proof.Packed
import proofs.«158548_j5231270166915_2_alg».proof.Proof.Entry
import proofs.«158548_j5231270166915_2_alg».proof.Proof.RefRead
import proofs.«158548_j5231270166915_2_alg».proof.Proof.BlockSum
import proofs.«158548_j5231270166915_2_alg».proof.Proof.Spec

noncomputable section

open scoped BigOperators
open Idealize.ShloMosaic Idealize.ShloMosaic.TcCoe Idealize.ShloMosaic.ValueIdx Idealize.SL.Sem

namespace Cert.KernelIdeal.Bridge

open Cert.KernelIdeal Cert.KernelIdeal.Gen Cert.KernelIdeal.Entry Cert.KernelIdeal.Packed Cert.Sage

/-! ## From the packed result to the layer -/

/-- The unpacked array at node `n`, feature `d` is the packed one at row `r`, lane `q` when the flat positions agree. -/
theorem unpack_at (y : S50000x128.Idx → EReal) (n : Fin 100000) (d : Fin 64) (r : Fin 50000) (q : Fin 128)
    (h : r.val * 128 + q.val = n.val * 64 + d.val) :
    shapeCast S100000x64 y shapeCasts_S50000x128_S100000x64 (ix2 n d) = y (ix2 r q) :=
  shapeCast_apply y shapeCasts_S50000x128_S100000x64 (ix2 n d) (ix2 r q) (by
    rw [Shape.rowMajor_val_two, Shape.rowMajor_val_two]; exact h)

/-- An even node 2r sits in the low 64 lanes of row r. -/
theorem packed_even (aggr x : S100000x64.Idx → EReal) (wl wr : S64x64.Idx → EReal) (b : S64.Idx → EReal)
    (r : Fin 50000) (d : Fin 64) (n : Fin 100000) (hn : n.val = 2 * r.val) :
    packedAt (pack aggr) (pack x) (blockDiag wl) (blockDiag wr) (biasRow b) r (Fin.castAdd 64 d)
      = layerAt aggr x wl wr b n d := by
  have h1 : ∑ k : Fin 128, pack aggr (ix2 r k) * blockDiag wl (ix2 k (Fin.castAdd 64 d))
      = ∑ k : Fin 64, aggr (ix2 n k) * wl (ix2 k d) :=
    BlockSum.sum_low (fun k => pack aggr (ix2 r k)) (fun k => blockDiag wl (ix2 k (Fin.castAdd 64 d)))
      (fun k => aggr (ix2 n k)) (fun k => wl (ix2 k d))
      (fun k => pack_at aggr r (Fin.castAdd 64 k) n k (by show n.val * 64 + k.val = r.val * 128 + k.val; omega))
      (fun k => blockDiag_low_low wl k d) (fun k => blockDiag_high_low wl k d)
  have h2 : ∑ k : Fin 128, pack x (ix2 r k) * blockDiag wr (ix2 k (Fin.castAdd 64 d))
      = ∑ k : Fin 64, x (ix2 n k) * wr (ix2 k d) :=
    BlockSum.sum_low (fun k => pack x (ix2 r k)) (fun k => blockDiag wr (ix2 k (Fin.castAdd 64 d)))
      (fun k => x (ix2 n k)) (fun k => wr (ix2 k d))
      (fun k => pack_at x r (Fin.castAdd 64 k) n k (by show n.val * 64 + k.val = r.val * 128 + k.val; omega))
      (fun k => blockDiag_low_low wr k d) (fun k => blockDiag_high_low wr k d)
  unfold packedAt layerAt
  rw [h1, h2, biasRow_low, add_right_comm]

/-- An odd node 2r+1 sits in the high 64 lanes of row r. -/
theorem packed_odd (aggr x : S100000x64.Idx → EReal) (wl wr : S64x64.Idx → EReal) (b : S64.Idx → EReal)
    (r : Fin 50000) (d : Fin 64) (n : Fin 100000) (hn : n.val = 2 * r.val + 1) :
    packedAt (pack aggr) (pack x) (blockDiag wl) (blockDiag wr) (biasRow b) r (Fin.natAdd 64 d)
      = layerAt aggr x wl wr b n d := by
  have h1 : ∑ k : Fin 128, pack aggr (ix2 r k) * blockDiag wl (ix2 k (Fin.natAdd 64 d))
      = ∑ k : Fin 64, aggr (ix2 n k) * wl (ix2 k d) :=
    BlockSum.sum_high (fun k => pack aggr (ix2 r k)) (fun k => blockDiag wl (ix2 k (Fin.natAdd 64 d)))
      (fun k => aggr (ix2 n k)) (fun k => wl (ix2 k d))
      (fun k => pack_at aggr r (Fin.natAdd 64 k) n k (by show n.val * 64 + k.val = r.val * 128 + (64 + k.val); omega))
      (fun k => blockDiag_high_high wl k d) (fun k => blockDiag_low_high wl k d)
  have h2 : ∑ k : Fin 128, pack x (ix2 r k) * blockDiag wr (ix2 k (Fin.natAdd 64 d))
      = ∑ k : Fin 64, x (ix2 n k) * wr (ix2 k d) :=
    BlockSum.sum_high (fun k => pack x (ix2 r k)) (fun k => blockDiag wr (ix2 k (Fin.natAdd 64 d)))
      (fun k => x (ix2 n k)) (fun k => wr (ix2 k d))
      (fun k => pack_at x r (Fin.natAdd 64 k) n k (by show n.val * 64 + k.val = r.val * 128 + (64 + k.val); omega))
      (fun k => blockDiag_high_high wr k d) (fun k => blockDiag_low_high wr k d)
  unfold packedAt layerAt
  rw [h1, h2, biasRow_high, add_right_comm]

/-- THE LAW: the packed result of the packed arrays, unpacked, is the layer of the unpacked arrays. -/
theorem unpacked_eq_layer (aggr x : S100000x64.Idx → EReal) (wl wr : S64x64.Idx → EReal) (b : S64.Idx → EReal) :
    shapeCast S100000x64 (packed (pack aggr) (pack x) (blockDiag wl) (blockDiag wr) (biasRow b))
        shapeCasts_S50000x128_S100000x64
      = layer aggr x wl wr b := by
  funext i
  obtain ⟨n, d, rfl⟩ : ∃ (n : Fin 100000) (d : Fin 64), i = ix2 n d := ⟨i 0, i 1, eq_ix2 i⟩
  have hn : n.val < 100000 := n.isLt
  show _ = layerAt aggr x wl wr b n d
  rcases Nat.even_or_odd' n.val with ⟨r, hr | hr⟩
  · rw [unpack_at _ n d ⟨r, by omega⟩ (Fin.castAdd 64 d) (by show r * 128 + d.val = n.val * 64 + d.val; omega), packed_ix2]
    exact packed_even aggr x wl wr b ⟨r, by omega⟩ d n hr
  · rw [unpack_at _ n d ⟨r, by omega⟩ (Fin.natAdd 64 d) (by show r * 128 + (64 + d.val) = n.val * 64 + d.val; omega), packed_ix2]
    exact packed_odd aggr x wl wr b ⟨r, by omega⟩ d n hr

/-! ## The summed messages are the reference's -/

/-- The kernel program's summed messages are the reference's: the same gather and scatter-add, the
    kernel's rounding to bf16 and back the identity on extended reals. -/
theorem aggr_eq (x : (⟨S100000x64, .f32⟩ : BufTy).Contents (Elt Ideal)) (e : (⟨S2x1250000, .i32⟩ : BufTy).Contents (Elt Ideal)) :
    Entry.aggr x e = Cert.ReferenceIdeal.Read.val_main_v13 (F := Ideal) x e := rfl

/-! ## The run, read -/

variable (m : (ℓ : Loc nD τ sig) → Buf (Elt Ideal) ℓ) (ρ : Dev nD → PrngReg)

/-- The one host operation after the region unpacks the region's result array. -/
theorem tail_eq (c : Dev nD) : Pipeline.afterTail₀ cfgs (dats m) 0 (V0 m) [hostOps1] c main_v28
    = shapeCast S100000x64 ((dats m 0 c).arrAt 5 cfg0.N) shapeCasts_S50000x128_S100000x64 := by
  unfold Pipeline.afterTail₀
  show StableHlo.after hostOps1 _ (Proc.devRef .tc main_v28) = _
  after_results
  exact congrArg (fun z => shapeCast S100000x64 z shapeCasts_S50000x128_S100000x64)
    (Pipeline.withArrays_arr spec0 launch0.win.arr_inj c _ _ 5)

/-- The program's result: the layer of the reference's summed messages and the argument arrays. -/
theorem result_eq (c : Dev nD) : Pipeline.afterTail₀ cfgs (dats m) 0 (V0 m) [hostOps1] c main_v28
    = layer (Cert.ReferenceIdeal.Read.val_main_v13 (F := Ideal) (m ((c : Thread nD τ).loc main_arg0)) (m ((c : Thread nD τ).loc main_arg1)))
        (m ((c : Thread nD τ).loc main_arg0)) (m ((c : Thread nD τ).loc main_arg2))
        (m ((c : Thread nD τ).loc main_arg4)) (m ((c : Thread nD τ).loc main_arg3)) := by
  rw [tail_eq, Packed.final]
  unfold Packed.result
  rw [entry0, entry1, entry2, entry3, entry4, aggr_eq]
  exact unpacked_eq_layer _ _ _ _ _

/-- Every weakly fair execution of the kernel program ends with its result array at the layer and its
    arguments unchanged. -/
theorem run : θ_run defs (onTc (τ := τ) (main (F := Ideal))) ⟨m, fun _ => 0, ρ⟩ (fun r => ∀ c : Dev nD,
      r.2.mem ((c.tc : Thread nD τ).loc main_v28)
        = layer (Cert.ReferenceIdeal.Read.val_main_v13 (F := Ideal) (m ((c : Thread nD τ).loc main_arg0)) (m ((c : Thread nD τ).loc main_arg1)))
            (m ((c : Thread nD τ).loc main_arg0)) (m ((c : Thread nD τ).loc main_arg2))
            (m ((c : Thread nD τ).loc main_arg4)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v28 (Pipeline.mem_restRefs_of main_v28 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Bridge

end
-- ==== Proof.lean ====
/-
  A message-passing layer with sum aggregation, out = tanh(aggr · W_l + b + x · W_r), where row i of
  `aggr` is the sum of the feature rows of i's in-neighbours. The kernel program computes `aggr` on the
  host exactly as the reference does (gathering a bf16 copy of the features, which on extended reals is
  the features), packs two nodes into each 128-lane row, multiplies by the block-diagonal weights
  diag(W, W) inside a ten-point pipelined kernel, and unpacks. The reference multiplies the 100000 × 64
  arrays directly.

  Both results are ONE function of the arguments, `Cert.Sage.layer` of the summed messages, the features
  and the parameters (Proof/Spec.lean):
    · the reference's, by reading its operations at an index (Proof/RefRead.lean);
    · the kernel program's, because each block the kernel writes is a block of the packed product
      (Proof/Payload.lean, Proof/Packed.lean), the arrays it starts from are the packed arguments
      (Proof/Entry.lean), and a 128-lane product against diag(W, W) is the 64-lane product against W
      (Proof/BlockSum.lean, Proof/Bridge.lean).
  The only algebra is x · 0 = 0, 0 + s = s and the commutativity and associativity of +, all of which
  hold for every extended real; the precondition is not used. No operation of the kernel is replaced in
  its idealized reading, so `preserves` is trivially true; the two kernel frames are the generated ones and
  the reference's frame is its generated run.
-/
import proofs.«158548_j5231270166915_2_alg».proof.Defs
import proofs.«158548_j5231270166915_2_alg».proof.Proof.Gen.Kernel
import proofs.«158548_j5231270166915_2_alg».proof.Proof.Gen.Kernel.Frame
import proofs.«158548_j5231270166915_2_alg».proof.Proof.Gen.KernelIdeal
import proofs.«158548_j5231270166915_2_alg».proof.Proof.Gen.KernelIdeal.Frame
import proofs.«158548_j5231270166915_2_alg».proof.Proof.Gen.ReferenceIdeal
import proofs.«158548_j5231270166915_2_alg».proof.Proof.Gen.Pre_finite_inputs
import proofs.«158548_j5231270166915_2_alg».proof.Proof.Gen.ReferenceIdeal.Run
import proofs.«158548_j5231270166915_2_alg».proof.Proof.Gen.ReferenceIdeal.Read
import proofs.«158548_j5231270166915_2_alg».proof.Proof.RefRead
import proofs.«158548_j5231270166915_2_alg».proof.Proof.Bridge

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with their result array at the layer of the reference's summed messages, the
    features and the parameters, of arguments that agree. -/
theorem algebraic : Cert.algebraic_KernelIdeal_ReferenceIdeal := by
  intro m ρ m' ρ' _ hagree
  refine ⟨_, Cert.KernelIdeal.Bridge.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.ReferenceIdeal.Hand.result_eq_layer,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
